-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with EVERY buffer that outlives the launches read at the end.

  @main is four segments: host operations, the first tiled launch, host operations, the second tiled launch. The
  generated frame module names the buffer contents at each of the four boundaries (`W1 … W4`: a fold of the host
  operations over the launch memory, each launch's arrays replaced by what its write-backs leave) and proves every
  segment against them. Here the same segments are launched once more with a stronger reading of the last state: not
  only the eight argument arrays, but every unscoped buffer — the result among them — ends holding `W4`.
-/
import proofs.«150568_j7224134992217_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and at the end every unscoped buffer `b` of
    every core holds the last boundary's contents `W4 m ρ c b`. The launch: nothing is owed and no level is assigned;
    the first thread state is the launch memory held whole beside the generator register; the last one is read
    against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer among them. -/
theorem result_mem : Proc.devRef .tc main_v49 ∈ Pipeline.ucRefs τ sig := mem_uc main_v49 (by decide)

end Cert.Sage.KernelRun

end
-- ==== Proof.LayerSpec.lean ====
/-
  The arithmetic of one GraphSAGE layer as ONE function of whole arrays, index by index.

  For node features `agg` (the neighbourhood mean) and `x` (the node's own features), both [100000, 128], two
  [128, 128] weight matrices already transposed (`wl`, `wr`: entry (k, c) multiplies feature k into output
  column c) and a bias row `b` of shape [1, 128], the layer's entry at node r, column c is

      (∑ k, agg(r, k) · wl(k, c)) + b(0, c) + (∑ k, x(r, k) · wr(k, c)),

  with exactly this grouping of the two additions (the extended reals' addition is not associative at
  opposite infinities, so the grouping is part of the function). The first layer follows it by a maximum
  with zero. Nothing here depends on a program: both the tiled kernel (4000 rows at a time) and the reference's
  whole-array products are shown equal to these functions elsewhere.
-/
import Idealize.ShloMosaic.PureOps.Ideal
import Idealize.ShloMosaic.Lib.ValueIdx

noncomputable section

namespace Cert.Sage

open Idealize.ShloMosaic Idealize.ShloMosaic.ValueIdx

/-- The node-feature arrays' shape. -/
abbrev Nodes : Shape := ⟨2, ![100000, 128]⟩
/-- A weight matrix's shape. -/
abbrev Sq : Shape := ⟨2, ![128, 128]⟩
/-- The bias as one row. -/
abbrev Row : Shape := ⟨2, ![1, 128]⟩

/-- One entry of a layer before any activation, from ROWS: `a` and `s` are row r of the neighbourhood mean and
    of the node's own features, as functions of the feature index. -/
def entry (a s : Fin 128 → EReal) (wl : FVec Ideal Sq .f32) (b : FVec Ideal Row .f32) (wr : FVec Ideal Sq .f32)
    (c : Fin 128) : EReal :=
  (∑ k : Fin 128, a k * wl (ix2 k c)) + b (ix2 (0 : Fin 1) c) + ∑ k : Fin 128, s k * wr (ix2 k c)

/-- The layer without activation (the second layer), as a whole array. -/
def lin (agg x : FVec Ideal Nodes .f32) (wl : FVec Ideal Sq .f32) (b : FVec Ideal Row .f32) (wr : FVec Ideal Sq .f32) :
    FVec Ideal Nodes .f32 :=
  fun i => entry (fun k => agg (ix2 (i 0 : Fin 100000) k)) (fun k => x (ix2 (i 0 : Fin 100000) k)) wl b wr (i 1 : Fin 128)

/-- The layer followed by a maximum with zero (the first layer), as a whole array. -/
def linRelu (agg x : FVec Ideal Nodes .f32) (wl : FVec Ideal Sq .f32) (b : FVec Ideal Row .f32) (wr : FVec Ideal Sq .f32) :
    FVec Ideal Nodes .f32 :=
  fun i => max (lin agg x wl b wr i) (Ideal.ofBits .f32 0x00000000#32)

end Cert.Sage

end
-- ==== Proof.Payload.lean ====
/-
  What the kernel body stores, read at an entry of the 4000-row block.

  The body rounds its four matrix operands to bf16 (the identity on extended reals), multiplies the mean block and
  the feature block by their weight matrices into zero accumulators, adds the bias row broadcast over the rows
  between the two products, and (first layer only) takes the maximum with zero. At row p, column q of the block
  this is the layer's `entry` of row p of the two blocks.
-/
import proofs.«150568_j7224134992217_1_alg».proof.Proof.Gen.KernelIdeal.Skeleton
import proofs.«150568_j7224134992217_1_alg».proof.Proof.LayerSpec
import Idealize.ShloMosaic.PureOps.Ideal.Laws
import Idealize.ShloMosaic.Lib.Pipeline.Value
import Idealize.ShloMosaic.Lib.ValueIdx
import Idealize.ShloMosaic.Lib.ValueLayout

noncomputable section

namespace Cert.Sage.Payload

open Idealize.ShloMosaic Idealize.ShloMosaic.ValueIdx Cert.KernelIdeal Cert.KernelIdeal.Gen

/-- The left operand's row coordinate under the product's dimension numbers is the output's row. -/
theorem lhs_row (j : S4000x128.Idx) (κ : dot_S4000x128_S128x128_S4000x128_1_0_0_1_n_n.contr.Idx) :
    (dot_S4000x128_S128x128_S4000x128_1_0_0_1_n_n.lhsIdx j κ 0).val = (j 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand's column coordinate is the output's column. -/
theorem rhs_col (j : S4000x128.Idx) (κ : dot_S4000x128_S128x128_S4000x128_1_0_0_1_n_n.contr.Idx) :
    (dot_S4000x128_S128x128_S4000x128_1_0_0_1_n_n.rhsIdx j κ 1).val = (j 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The block matrix product into a zero accumulator, at row p and column q: the sum over the 128 features of the
    left operand's row p times the right operand's column q (the contraction index is its one coordinate). -/
theorem matmul_block_apply {φ₁ φ₂ : FTy} (l : FVec Ideal S4000x128 φ₁) (r : FVec Ideal S128x128 φ₂) (p : Fin 4000) (q : Fin 128) :
    matmul (F := Ideal) dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (dot_S4000x128_S128x128_S4000x128_1_0_0_1_n_n.lhsIdx_val_of_single rfl (ix2 p q) _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun a => Fin.ext (by
      match a with
      | ⟨0, _⟩ => exact (dot_S4000x128_S128x128_S4000x128_1_0_0_1_n_n.rhsIdx_val_of_single rfl (ix2 p q) _).trans hk
      | ⟨1, _⟩ => exact rhs_col _ _)
  rw [el, er]

/-- The first layer's stored value at row p, column q of the block. -/
theorem pay_relu_apply (x0 x1 : Vec Ideal S4000x128 .f32) (x2 x4 : Vec Ideal S128x128 .f32) (x3 : Vec Ideal S1x128 .f32)
    (p : Fin 4000) (q : Fin 128) :
    k0_pay1 (F := Ideal) x0 x1 x2 x4 x3 (ix2 p q)
      = max (entry (fun k => x0 (ix2 p k)) (fun k => x1 (ix2 p k)) x2 x3 x4 q) (Ideal.ofBits .f32 0x00000000#32) := by
  unfold k0_pay1 entry
  show max (matmul (F := Ideal) dot_S4000x128_S128x128_S4000x128_1_0_0_1_n_n none _ _ (constant (F := Ideal) S4000x128 .f32 0x00000000#32) (ix2 p q)
      + broadcastTo S4000x128 (shapeCast S1x128 x3 shapeCasts_S1x128_S1x128) broadcasts_S1x128_S4000x128 (ix2 p q)
      + matmul (F := Ideal) dot_S4000x128_S128x128_S4000x128_1_0_0_1_n_n none _ _ (constant (F := Ideal) S4000x128 .f32 0x00000000#32) (ix2 p q)) _ = _
  rw [matmul_block_apply, matmul_block_apply, broadcastTo_1b_ab_apply, shapeCast_self, shapeCast_self, shapeCast_self, shapeCast_self]
  rfl

/-- The second layer's stored value at row p, column q of the block. -/
theorem pay_lin_apply (x0 x1 : Vec Ideal S4000x128 .f32) (x2 x4 : Vec Ideal S128x128 .f32) (x3 : Vec Ideal S1x128 .f32)
    (p : Fin 4000) (q : Fin 128) :
    k1_pay1 (F := Ideal) x0 x1 x2 x4 x3 (ix2 p q)
      = entry (fun k => x0 (ix2 p k)) (fun k => x1 (ix2 p k)) x2 x3 x4 q := by
  unfold k1_pay1 entry
  show matmul (F := Ideal) dot_S4000x128_S128x128_S4000x128_1_0_0_1_n_n none _ _ (constant (F := Ideal) S4000x128 .f32 0x00000000#32) (ix2 p q)
      + broadcastTo S4000x128 (shapeCast S1x128 x3 shapeCasts_S1x128_S1x128) broadcasts_S1x128_S4000x128 (ix2 p q)
      + matmul (F := Ideal) dot_S4000x128_S128x128_S4000x128_1_0_0_1_n_n none _ _ (constant (F := Ideal) S4000x128 .f32 0x00000000#32) (ix2 p q) = _
  rw [matmul_block_apply, matmul_block_apply, broadcastTo_1b_ab_apply, shapeCast_self, shapeCast_self, shapeCast_self, shapeCast_self, shapeCast_self]
  rfl

end Cert.Sage.Payload

end
-- ==== Proof.Region0.lean ====
/-
  The output array of the first tiled launch, as one function of the arrays the launch was entered with.

  The launch walks 25 grid points; point t reads rows 4000·t … 4000·t + 3999 of the neighbourhood-mean array and of
  the node-feature array, the two weight matrices and the bias row whole, and writes the same rows of the output.
  So what a point writes back is that block of the layer's whole-array function, the blocks tile the 100000 rows,
  and the array ends holding the layer's function everywhere. Stated for ANY contents `V` the launch is entered with.
-/
import proofs.«150568_j7224134992217_1_alg».proof.Proof.Gen.KernelIdeal.Frame
import proofs.«150568_j7224134992217_1_alg».proof.Proof.Payload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage Cert.Sage.Payload

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- Both row-tiled inputs move with the output's block along the rows and stay at column block 0; the three resident
    operands stay at block (0, 0); the output's row block is below 25. Decided over the 25 grid points. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every one of the 25 row blocks is some grid point's. -/
theorem idx_onto0 : ∀ (q0 : Fin 25), ∃ t : Fin cfg0.N, win0_5.index t = ![q0.val, 0] :=
  (by decide +kernel : ∀ (q0 : Fin 25), ∃ t : Fin grid0.N, win0_5.index t = ![q0.val, 0])

/-- WHAT POINT `t` WRITES BACK is block `t` of the layer's whole-array function of the region's five input arrays:
    row p of the 4000-row block is row (block · 4000 + p) of both node-feature arrays, the weights and the bias are
    read whole. -/
theorem flushed0 (c : Dev nD) (t : Fin cfg0.N) :
    (dat0 V c).flushed 5 t = ((cfg0.win 5).blk t).view.read (Elt Ideal)
      (linRelu (V c main_v22) (V c main_arg0) (V c main_v23) (V c main_v25) (V c main_v24)) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11⟩ := idx_facts0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = linRelu (V c main_v22) (V c main_arg0) (V c main_v23) (V c main_v25) (V c main_v24) (((cfg0.win 5).blk t).view.emb (ix2 p q))
  refine (pay_relu_apply (iblk0 V c 0 t) (iblk0 V c 1 t) (iblk0 V c 2 t) (iblk0 V c 4 t) (iblk0 V c 3 t) p q).trans ?_
  have hrow : ((((cfg0.win 5).blk t).view.emb (ix2 p q)) 0 : Fin 100000).val = win0_5.index t (0 : Fin 2) * 4000 + 1 * p.val := rfl
  have hcol : ((((cfg0.win 5).blk t).view.emb (ix2 p q)) 1 : Fin 128) = q := Fin.ext (by
    show win0_5.index t (1 : Fin 2) * 128 + 1 * q.val = q.val
    omega)
  have ha : ∀ k : Fin 128, iblk0 V c 0 t (ix2 p k)
      = V c main_v22 (ix2 ((((cfg0.win 5).blk t).view.emb (ix2 p q)) 0 : Fin 100000) k) := fun k => by
    show V c main_v22 (((cfg0.win 0).blk t).view.emb (ix2 p k)) = _
    refine congrArg (V c main_v22) (funext fun a => Fin.ext ?_)
    match a with
    | ⟨0, _⟩ => show win0_0.index t (0 : Fin 2) * 4000 + 1 * p.val = _; rw [hrow, e0]
    | ⟨1, _⟩ => show win0_0.index t (1 : Fin 2) * 128 + 1 * k.val = k.val; omega
  have hx : ∀ k : Fin 128, iblk0 V c 1 t (ix2 p k)
      = V c main_arg0 (ix2 ((((cfg0.win 5).blk t).view.emb (ix2 p q)) 0 : Fin 100000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 4000 + 1 * p.val = _; rw [hrow, e2]
    | ⟨1, _⟩ => show win0_1.index t (1 : Fin 2) * 128 + 1 * k.val = k.val; omega
  have hwl : iblk0 V c 2 t = V c main_v23 := funext fun y => by
    show V c main_v23 (((cfg0.win 2).blk t).view.emb y) = _
    refine congrArg (V c main_v23) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hb : iblk0 V c 3 t = V c main_v25 := funext fun y => by
    show V c main_v25 (((cfg0.win 3).blk t).view.emb y) = _
    refine congrArg (V c main_v25) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hwr : iblk0 V c 4 t = V c main_v24 := funext fun y => by
    show V c main_v24 (((cfg0.win 4).blk t).view.emb y) = _
    refine congrArg (V c main_v24) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  unfold linRelu lin
  rw [hwl, hb, hwr, hcol]
  simp only [ha, hx]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- The 25 row blocks tile the array: row r lies in block r / 4000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE REGION'S OUTPUT ARRAY after its 25 points: the layer's function of the five arrays the region was entered with. -/
theorem final0 (c : Dev nD) :
    (dat0 V c).arrAt 5 cfg0.N = linRelu (V c main_v22) (V c main_arg0) (V c main_v23) (V c main_v25) (V c main_v24) :=
  (dat0 V c).arrAt_eq_of_cover 5 _ (fun t _ => flushed0 V c t) cover0

end Cert.Sage.Region0

end
-- ==== Proof.Region1.lean ====
/-
  The output array of the second tiled launch, as one function of the arrays the launch was entered with.

  The launch walks 25 grid points; point t reads rows 4000·t … 4000·t + 3999 of the neighbourhood-mean array and of
  the node-feature array, the two weight matrices and the bias row whole, and writes the same rows of the output.
  So what a point writes back is that block of the layer's whole-array function, the blocks tile the 100000 rows,
  and the array ends holding the layer's function everywhere. Stated for ANY contents `V` the launch is entered with.
-/
import proofs.«150568_j7224134992217_1_alg».proof.Proof.Gen.KernelIdeal.Frame
import proofs.«150568_j7224134992217_1_alg».proof.Proof.Payload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage Cert.Sage.Payload

variable (V : (c : Dev nD) → (b : Ref sig .tc) → Buf (Elt Ideal) ((c : Thread nD τ).loc b))

theorem hz : (![0, 0] : Fin 2 → Nat) = fun _ => 0 := funext fun a => by fin_cases a <;> rfl

/-! ## Region 1 -/

/-- Both row-tiled inputs move with the output's block along the rows and stay at column block 0; the three resident
    operands stay at block (0, 0); the output's row block is below 25. Decided over the 25 grid points. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every one of the 25 row blocks is some grid point's. -/
theorem idx_onto1 : ∀ (q0 : Fin 25), ∃ t : Fin cfg1.N, win1_5.index t = ![q0.val, 0] :=
  (by decide +kernel : ∀ (q0 : Fin 25), ∃ t : Fin grid1.N, win1_5.index t = ![q0.val, 0])

/-- WHAT POINT `t` WRITES BACK is block `t` of the layer's whole-array function of the region's five input arrays:
    row p of the 4000-row block is row (block · 4000 + p) of both node-feature arrays, the weights and the bias are
    read whole. -/
theorem flushed1 (c : Dev nD) (t : Fin cfg1.N) :
    (dat1 V c).flushed 5 t = ((cfg1.win 5).blk t).view.read (Elt Ideal)
      (lin (V c main_v45) (V c main_v26) (V c main_v46) (V c main_v48) (V c main_v47)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e0, e1, e2, e3, e4, e5, e6, e7, e8, e9, e10, e11⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = lin (V c main_v45) (V c main_v26) (V c main_v46) (V c main_v48) (V c main_v47) (((cfg1.win 5).blk t).view.emb (ix2 p q))
  refine (pay_lin_apply (iblk1 V c 0 t) (iblk1 V c 1 t) (iblk1 V c 2 t) (iblk1 V c 4 t) (iblk1 V c 3 t) p q).trans ?_
  have hrow : ((((cfg1.win 5).blk t).view.emb (ix2 p q)) 0 : Fin 100000).val = win1_5.index t (0 : Fin 2) * 4000 + 1 * p.val := rfl
  have hcol : ((((cfg1.win 5).blk t).view.emb (ix2 p q)) 1 : Fin 128) = q := Fin.ext (by
    show win1_5.index t (1 : Fin 2) * 128 + 1 * q.val = q.val
    omega)
  have ha : ∀ k : Fin 128, iblk1 V c 0 t (ix2 p k)
      = V c main_v45 (ix2 ((((cfg1.win 5).blk t).view.emb (ix2 p q)) 0 : Fin 100000) k) := fun k => by
    show V c main_v45 (((cfg1.win 0).blk t).view.emb (ix2 p k)) = _
    refine congrArg (V c main_v45) (funext fun a => Fin.ext ?_)
    match a with
    | ⟨0, _⟩ => show win1_0.index t (0 : Fin 2) * 4000 + 1 * p.val = _; rw [hrow, e0]
    | ⟨1, _⟩ => show win1_0.index t (1 : Fin 2) * 128 + 1 * k.val = k.val; omega
  have hx : ∀ k : Fin 128, iblk1 V c 1 t (ix2 p k)
      = V c main_v26 (ix2 ((((cfg1.win 5).blk t).view.emb (ix2 p q)) 0 : Fin 100000) k) := fun k => by
    show V c main_v26 (((cfg1.win 1).blk t).view.emb (ix2 p k)) = _
    refine congrArg (V c main_v26) (funext fun a => Fin.ext ?_)
    match a with
    | ⟨0, _⟩ => show win1_1.index t (0 : Fin 2) * 4000 + 1 * p.val = _; rw [hrow, e2]
    | ⟨1, _⟩ => show win1_1.index t (1 : Fin 2) * 128 + 1 * k.val = k.val; omega
  have hwl : iblk1 V c 2 t = V c main_v46 := funext fun y => by
    show V c main_v46 (((cfg1.win 2).blk t).view.emb y) = _
    refine congrArg (V c main_v46) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hb : iblk1 V c 3 t = V c main_v48 := funext fun y => by
    show V c main_v48 (((cfg1.win 3).blk t).view.emb y) = _
    refine congrArg (V c main_v48) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have hwr : iblk1 V c 4 t = V c main_v47 := funext fun y => by
    show V c main_v47 (((cfg1.win 4).blk t).view.emb y) = _
    refine congrArg (V c main_v47) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  unfold lin
  rw [hwl, hb, hwr, hcol]
  simp only [ha, hx]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v49).slice (win1_5.rect t)).set ↔ _
  rw [View.set_slice_whole, Rect.mem_set_unit]
  exact Iff.rfl

/-- The 25 row blocks tile the array: row r lies in block r / 4000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE REGION'S OUTPUT ARRAY after its 25 points: the layer's function of the five arrays the region was entered with. -/
theorem final1 (c : Dev nD) :
    (dat1 V c).arrAt 5 cfg1.N = lin (V c main_v45) (V c main_v26) (V c main_v46) (V c main_v48) (V c main_v47) :=
  (dat1 V c).arrAt_eq_of_cover 5 _ (fun t _ => flushed1 V c t) cover1

end Cert.Sage.Region1

end
-- ==== Proof.HostChain.lean ====
/-
  The host operations both launches are surrounded by, as named functions of arrays.

  `meanOver feat src dst` is the neighbourhood mean: gather the rows `feat[src]` (a negative source index wrapped
  by +100000), add them into a zero array at the rows `dst`, and divide row r by max(deg r, 1), where deg counts
  the edges arriving at r (ones added at `dst`). It is the same chain of operations before the first launch (on
  the input features) and between the launches (on the first layer's output); it is never opened: both programs
  apply the same chain, so only its arguments have to agree. `srcOf` / `dstOf` are the two rows of the edge list.
-/
import proofs.«150568_j7224134992217_1_alg».proof.Proof.Gen.KernelIdeal

noncomputable section

namespace Cert.Sage.HostChain

open Idealize.ShloMosaic Cert.KernelIdeal Cert.KernelIdeal.Gen

variable {F : FTy → Type} [FloatOps F]

/-- Row 0 of the [2, 1600000] edge list: the source node of each edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the destination node of each edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean of the rows `feat[src]` over the edges arriving at each node (divided by max(count, 1)). -/
def meanOver (feat : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- A weight matrix transposed: entry (k, c) of the result is entry (c, k) of the argument. -/
def wT (w : (⟨S128x128, .f32⟩ : BufTy).Contents (Elt F)) : (⟨S128x128, .f32⟩ : BufTy).Contents (Elt F) :=
  transpose S128x128 [1, 0] w transposes_S128x128_S128x128_1_0

/-- The bias vector as one row [1, 128]. -/
def biasRow (b : (⟨S128, .f32⟩ : BufTy).Contents (Elt F)) : (⟨S1x128, .f32⟩ : BufTy).Contents (Elt F) :=
  shapeCast _ b shapeCasts_S128_S1x128

end Cert.Sage.HostChain

end
-- ==== Proof.HostBefore.lean ====
/-
  What the host operations BEFORE the first launch leave in the buffers the launches read, from ANY contents `W`
  of the buffers before them: the neighbourhood mean of the input features, the two transposed first-layer weight
  matrices, the first bias as a row, the two rows of the edge list (kept for the second mean); the arguments
  themselves are not written.
-/
import proofs.«150568_j7224134992217_1_alg».proof.Proof.Gen.KernelIdeal.Launch
import proofs.«150568_j7224134992217_1_alg».proof.Proof.HostChain
import Idealize.ShloMosaic.Lib.StableHlo.Run

set_option maxRecDepth 16384

noncomputable section

namespace Cert.Sage.HostBefore

open Idealize.ShloMosaic Idealize.ShloMosaic.TcCoe Idealize.ShloMosaic.StableHlo Idealize.SL.Sem
open Cert.KernelIdeal Cert.KernelIdeal.Gen Cert.Sage.HostChain

variable {F : FTy → Type} [FloatOps F]

variable (W : Valuation τ sig (Elt F))

/-- The first launch's mean operand. -/
theorem mean_in : StableHlo.after hostOps0 W (Proc.devRef .tc main_v22)
    = meanOver (W (Proc.devRef .tc main_arg0)) (srcOf (W (Proc.devRef .tc main_arg1))) (dstOf (W (Proc.devRef .tc main_arg1))) := by
  after_results_simp
  rfl

/-- Its weight operands and its bias row. -/
theorem wl_in : StableHlo.after hostOps0 W (Proc.devRef .tc main_v23) = wT (W (Proc.devRef .tc main_arg2)) := by
  after_results_simp
  rfl
theorem wr_in : StableHlo.after hostOps0 W (Proc.devRef .tc main_v24) = wT (W (Proc.devRef .tc main_arg4)) := by
  after_results_simp
  rfl
theorem b_in : StableHlo.after hostOps0 W (Proc.devRef .tc main_v25) = biasRow (W (Proc.devRef .tc main_arg3)) := by
  after_results_simp
  rfl

/-- The edge list's two rows. -/
theorem src_in : StableHlo.after hostOps0 W (Proc.devRef .tc main_v1) = srcOf (W (Proc.devRef .tc main_arg1)) := by
  after_results_simp
  rfl
theorem dst_in : StableHlo.after hostOps0 W (Proc.devRef .tc main_v3) = dstOf (W (Proc.devRef .tc main_arg1)) := by
  after_results_simp
  rfl

/-- The arguments the later segments still read are not written. -/
theorem arg0_in : StableHlo.after hostOps0 W (Proc.devRef .tc main_arg0) = W (Proc.devRef .tc main_arg0) := by
  after_results_simp
theorem arg5_in : StableHlo.after hostOps0 W (Proc.devRef .tc main_arg5) = W (Proc.devRef .tc main_arg5) := by
  after_results_simp
theorem arg6_in : StableHlo.after hostOps0 W (Proc.devRef .tc main_arg6) = W (Proc.devRef .tc main_arg6) := by
  after_results_simp
theorem arg7_in : StableHlo.after hostOps0 W (Proc.devRef .tc main_arg7) = W (Proc.devRef .tc main_arg7) := by
  after_results_simp

end Cert.Sage.HostBefore

end
-- ==== Proof.HostBetween.lean ====
/-
  What the host operations BETWEEN the two launches leave in the buffers the second launch reads, from ANY contents
  `W` of the buffers before them: the neighbourhood mean of the first layer's output (over the same edge rows the
  first stretch extracted), the two transposed second-layer weight matrices and the second bias as a row; the first
  layer's output itself is not written.
-/
import proofs.«150568_j7224134992217_1_alg».proof.Proof.Gen.KernelIdeal.Launch
import proofs.«150568_j7224134992217_1_alg».proof.Proof.HostChain
import Idealize.ShloMosaic.Lib.StableHlo.Run

set_option maxRecDepth 16384

noncomputable section

namespace Cert.Sage.HostBetween

open Idealize.ShloMosaic Idealize.ShloMosaic.TcCoe Idealize.ShloMosaic.StableHlo Idealize.SL.Sem
open Cert.KernelIdeal Cert.KernelIdeal.Gen Cert.Sage.HostChain

variable {F : FTy → Type} [FloatOps F]

variable (W : Valuation τ sig (Elt F))

/-- The second launch's mean operand: the mean of the first launch's output over the kept edge rows. -/
theorem mean_mid : StableHlo.after hostOps1 W (Proc.devRef .tc main_v45)
    = meanOver (W (Proc.devRef .tc main_v26)) (W (Proc.devRef .tc main_v1)) (W (Proc.devRef .tc main_v3)) := by
  after_results_simp
  rfl

/-- Its weight operands and its bias row. -/
theorem wl_mid : StableHlo.after hostOps1 W (Proc.devRef .tc main_v46) = wT (W (Proc.devRef .tc main_arg5)) := by
  after_results_simp
  rfl
theorem wr_mid : StableHlo.after hostOps1 W (Proc.devRef .tc main_v47) = wT (W (Proc.devRef .tc main_arg7)) := by
  after_results_simp
  rfl
theorem b_mid : StableHlo.after hostOps1 W (Proc.devRef .tc main_v48) = biasRow (W (Proc.devRef .tc main_arg6)) := by
  after_results_simp
  rfl

/-- The first launch's output is not written. -/
theorem h_mid : StableHlo.after hostOps1 W (Proc.devRef .tc main_v26) = W (Proc.devRef .tc main_v26) := by
  after_results_simp

end Cert.Sage.HostBetween

end
-- ==== Proof.Model.lean ====
/-
  The whole two-layer network as ONE function of the eight argument arrays.

  h   = max(mean(x) · W1lᵀ + b1 + x · W1rᵀ, 0)
  out =      mean(h) · W2lᵀ + b2 + h · W2rᵀ

  with `mean` the neighbourhood mean over the edge list (HostChain.meanOver, never opened) and each layer the
  entry-by-entry function of LayerSpec. Both programs are shown to end with this array.
-/
import proofs.«150568_j7224134992217_1_alg».proof.Proof.HostChain
import proofs.«150568_j7224134992217_1_alg».proof.Proof.LayerSpec

noncomputable section

namespace Cert.Sage.Model

open Idealize.ShloMosaic Cert.KernelIdeal Cert.KernelIdeal.Gen Cert.Sage Cert.Sage.HostChain

/-- The first layer's output. -/
def hidden (x : (⟨S100000x128, .f32⟩ : BufTy).Contents (Elt Ideal)) (e : (⟨S2x1600000, .i32⟩ : BufTy).Contents (Elt Ideal))
    (w1l : (⟨S128x128, .f32⟩ : BufTy).Contents (Elt Ideal)) (b1 : (⟨S128, .f32⟩ : BufTy).Contents (Elt Ideal))
    (w1r : (⟨S128x128, .f32⟩ : BufTy).Contents (Elt Ideal)) : (⟨S100000x128, .f32⟩ : BufTy).Contents (Elt Ideal) :=
  linRelu (meanOver x (srcOf e) (dstOf e)) x (wT w1l) (biasRow b1) (wT w1r)

/-- The network's result. -/
def sage (x : (⟨S100000x128, .f32⟩ : BufTy).Contents (Elt Ideal)) (e : (⟨S2x1600000, .i32⟩ : BufTy).Contents (Elt Ideal))
    (w1l : (⟨S128x128, .f32⟩ : BufTy).Contents (Elt Ideal)) (b1 : (⟨S128, .f32⟩ : BufTy).Contents (Elt Ideal))
    (w1r w2l : (⟨S128x128, .f32⟩ : BufTy).Contents (Elt Ideal)) (b2 : (⟨S128, .f32⟩ : BufTy).Contents (Elt Ideal))
    (w2r : (⟨S128x128, .f32⟩ : BufTy).Contents (Elt Ideal)) : (⟨S100000x128, .f32⟩ : BufTy).Contents (Elt Ideal) :=
  lin (meanOver (hidden x e w1l b1 w1r) (srcOf e) (dstOf e)) (hidden x e w1l b1 w1r) (wT w2l) (biasRow b2) (wT w2r)

end Cert.Sage.Model

end
-- ==== Proof.KernelValue.lean ====
/-
  The kernel program's result buffer at the last boundary is the network's function of the arguments.

  Walking the four segments backwards: the result is the second launch's output, which is the second layer's function
  of what the launch was entered with; those five arrays are what the host operations between the launches leave —
  the mean of the first launch's output over the edge rows, that output itself, two transposed weights, a bias row —;
  the first launch's output is the first layer's function of what the first host stretch leaves: the mean of the input
  features, the features, two transposed weights, a bias row. Buffers a launch does not own pass through it unchanged.
-/
import proofs.«150568_j7224134992217_1_alg».proof.Proof.Gen.KernelIdeal.Frame
import proofs.«150568_j7224134992217_1_alg».proof.Proof.Region0
import proofs.«150568_j7224134992217_1_alg».proof.Proof.Region1
import proofs.«150568_j7224134992217_1_alg».proof.Proof.HostBefore
import proofs.«150568_j7224134992217_1_alg».proof.Proof.HostBetween
import proofs.«150568_j7224134992217_1_alg».proof.Proof.Model

set_option maxRecDepth 16384

noncomputable section

namespace Cert.Sage.KernelValue

open Idealize.ShloMosaic Idealize.ShloMosaic.TcCoe Idealize.ShloMosaic.StableHlo Idealize.SL.Sem
open Cert.KernelIdeal Cert.KernelIdeal.Gen Cert.Sage Cert.Sage.HostChain

variable (m : (ℓ : Loc nD τ sig) → Buf (Elt Ideal) ℓ) (ρ : Dev nD → PrngReg)

/-- After the first launch its output buffer holds the first layer's output. -/
theorem hidden_eq (c : Dev nD) :
    W2 m ρ c (Proc.devRef .tc main_v26) = Model.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Region0.final0 (V1 m ρ) c).trans ?_
  show linRelu (StableHlo.after hostOps0 (W0 m ρ c) (Proc.devRef .tc main_v22))
      (StableHlo.after hostOps0 (W0 m ρ c) (Proc.devRef .tc main_arg0))
      (StableHlo.after hostOps0 (W0 m ρ c) (Proc.devRef .tc main_v23))
      (StableHlo.after hostOps0 (W0 m ρ c) (Proc.devRef .tc main_v25))
      (StableHlo.after hostOps0 (W0 m ρ c) (Proc.devRef .tc main_v24)) = _
  rw [HostBefore.mean_in, HostBefore.arg0_in, HostBefore.wl_in, HostBefore.b_in, HostBefore.wr_in]
  rfl

/-- The buffers the first launch does not own, after it: still what the first host stretch left. -/
theorem src_eq (c : Dev nD) : W2 m ρ c (Proc.devRef .tc main_v1) = srcOf (m ((c : Thread nD τ).loc main_arg1)) :=
  (W2_of_ne m ρ c main_v1 (by decide)).trans (HostBefore.src_in (W0 m ρ c))
theorem dst_eq (c : Dev nD) : W2 m ρ c (Proc.devRef .tc main_v3) = dstOf (m ((c : Thread nD τ).loc main_arg1)) :=
  (W2_of_ne m ρ c main_v3 (by decide)).trans (HostBefore.dst_in (W0 m ρ c))
theorem arg5_eq (c : Dev nD) : W2 m ρ c (Proc.devRef .tc main_arg5) = (m ((c : Thread nD τ).loc main_arg5)) :=
  (W2_of_ne m ρ c main_arg5 (by decide)).trans (HostBefore.arg5_in (W0 m ρ c))
theorem arg6_eq (c : Dev nD) : W2 m ρ c (Proc.devRef .tc main_arg6) = (m ((c : Thread nD τ).loc main_arg6)) :=
  (W2_of_ne m ρ c main_arg6 (by decide)).trans (HostBefore.arg6_in (W0 m ρ c))
theorem arg7_eq (c : Dev nD) : W2 m ρ c (Proc.devRef .tc main_arg7) = (m ((c : Thread nD τ).loc main_arg7)) :=
  (W2_of_ne m ρ c main_arg7 (by decide)).trans (HostBefore.arg7_in (W0 m ρ c))

/-- THE RESULT BUFFER at the last boundary. -/
theorem result_eq (c : Dev nD) :
    W4 m ρ c (Proc.devRef .tc main_v49)
      = Model.sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Region1.final1 (V3 m ρ) c).trans ?_
  show lin (StableHlo.after hostOps1 (W2 m ρ c) (Proc.devRef .tc main_v45))
      (StableHlo.after hostOps1 (W2 m ρ c) (Proc.devRef .tc main_v26))
      (StableHlo.after hostOps1 (W2 m ρ c) (Proc.devRef .tc main_v46))
      (StableHlo.after hostOps1 (W2 m ρ c) (Proc.devRef .tc main_v48))
      (StableHlo.after hostOps1 (W2 m ρ c) (Proc.devRef .tc main_v47)) = _
  rw [HostBetween.mean_mid, HostBetween.h_mid, HostBetween.wl_mid, HostBetween.b_mid, HostBetween.wr_mid]
  rw [hidden_eq, src_eq, dst_eq, arg5_eq, arg6_eq, arg7_eq]
  rfl

end Cert.Sage.KernelValue

end
-- ==== Proof.KernelResult.lean ====
/-
  The idealized kernel program's run, read: it terminates with the result buffer at the network's function of the
  argument arrays, and with the argument arrays as launched.
-/
import proofs.«150568_j7224134992217_1_alg».proof.Proof.KernelRun
import proofs.«150568_j7224134992217_1_alg».proof.Proof.KernelValue

set_option maxRecDepth 16384

noncomputable section

namespace Cert.Sage.KernelResult

open Idealize.ShloMosaic Idealize.ShloMosaic.TcCoe Idealize.SL.Sem
open Cert.KernelIdeal Cert.KernelIdeal.Gen Cert.Sage

variable (m : (ℓ : Loc nD τ sig) → Buf (Elt Ideal) ℓ) (ρ : Dev nD → PrngReg)

/-- Every weakly fair execution terminates, nothing faulting; the result is `Model.sage` of the arguments as launched;
    the arguments end unchanged (each walks back through the four boundaries to the launch memory). -/
theorem run : θ_run defs (onTc (τ := τ) (main (F := Ideal))) ⟨m, fun _ => 0, ρ⟩ (fun r => ∀ c : Dev nD,
      r.2.mem ((c.tc : Thread nD τ).loc main_v49)
        = Model.sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ KernelRun.result_mem).trans (KernelValue.result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (KernelRun.run_all m ρ)

end Cert.Sage.KernelResult

end
-- ==== Proof.RefLayers.lean ====
/-
  The reference program's two layers are the layer functions, and its host chain is the kernel program's.

  Read one operation at a time, the reference computes: the neighbourhood mean of the input features; the first
  layer as two whole-array products, a bias broadcast and a maximum with zero; the mean of that; the second layer.
  At an entry (r, c) a whole-array product is the sum over the 128 features of row r times column c, and the bias
  broadcast reads the bias row at column c — so each layer is `Cert.Sage.lin` / `linRelu` of its operands. The mean,
  the transposes and the bias row are the same functions the kernel program applies on the host (the two printed
  programs spell their dimension records separately; they are equal field by field).
-/
import proofs.«150568_j7224134992217_1_alg».proof.Proof.Gen.ReferenceIdeal.Read
import proofs.«150568_j7224134992217_1_alg».proof.Proof.HostChain
import proofs.«150568_j7224134992217_1_alg».proof.Proof.LayerSpec
import proofs.«150568_j7224134992217_1_alg».proof.Proof.Model
import Idealize.ShloMosaic.Lib.ValueLayout

set_option maxRecDepth 16384

noncomputable section

namespace Cert.Sage.RefLayers

open Idealize.ShloMosaic Idealize.ShloMosaic.ValueIdx
open Cert.ReferenceIdeal Cert.ReferenceIdeal.Gen Cert.ReferenceIdeal.Read
open Cert.Sage

/-! ## The host chain -/

/-- The reference's first mean is the kernel program's chain on the input features and the edge list's rows. -/
theorem mean1 (x0 : (⟨S100000x128, .f32⟩ : BufTy).Contents (Elt Ideal)) (x1 : (⟨S2x1600000, .i32⟩ : BufTy).Contents (Elt Ideal)) :
    val_main_v22 (F := Ideal) x0 x1 = HostChain.meanOver x0 (HostChain.srcOf x1) (HostChain.dstOf x1) := rfl

/-- The reference's second mean is the same chain on its first layer's output. -/
theorem mean2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v50 (F := Ideal) x0 x1 x2 x3 x4
      = HostChain.meanOver (val_main_v31 (F := Ideal) x0 x1 x2 x3 x4) (HostChain.srcOf x1) (HostChain.dstOf x1) := rfl

/-- A transposed weight matrix is the same array in both programs. -/
theorem wT_eq (w : (⟨S128x128, .f32⟩ : BufTy).Contents (Elt Ideal)) :
    transpose S128x128 [1, 0] w transposes_S128x128_S128x128_1_0 = HostChain.wT w := rfl

/-- The bias as a row: the reference broadcasts the vector into [1, 128], the kernel program reshapes it; both rows
    read the vector at the column. -/
theorem biasRow_eq (b : (⟨S128, .f32⟩ : BufTy).Contents (Elt Ideal)) :
    broadcastInDim S1x128 ![1] bcast_S128_S1x128_1 b = HostChain.biasRow b := by
  funext i
  obtain ⟨u, c, rfl⟩ : ∃ (u : Fin 1) (c : Fin 128), i = ix2 u c := ⟨i 0, i 1, eq_ix2 i⟩
  refine (val_main_v25_apply (F := Ideal) b (ix2 u c)).trans ?_
  have hi : idx_main_v25 (ix2 u c) = ix1 c := funext fun a => Fin.ext (by match a with | ⟨0, _⟩ => rfl)
  rw [hi]
  unfold HostChain.biasRow
  exact (shapeCast_a_1a_apply b _ u c).symm

/-! ## The layers -/

/-! The reference's operand indices of a product at entry i and feature k are (row of i, k) and (k, column of i); its
    bias broadcast reads the row at (0, column of i). -/
theorem l24 (i : S100000x128.Idx) (k : Fin 128) : lidx_main_v24 i k = ix2 (i 0 : Fin 100000) k :=
  funext fun a => Fin.ext (by match a with | ⟨0, _⟩ => rfl | ⟨1, _⟩ => rfl)
theorem r24 (i : S100000x128.Idx) (k : Fin 128) : ridx_main_v24 i k = ix2 k (i 1 : Fin 128) :=
  funext fun a => Fin.ext (by match a with | ⟨0, _⟩ => rfl | ⟨1, _⟩ => rfl)
theorem l29 (i : S100000x128.Idx) (k : Fin 128) : lidx_main_v29 i k = ix2 (i 0 : Fin 100000) k :=
  funext fun a => Fin.ext (by match a with | ⟨0, _⟩ => rfl | ⟨1, _⟩ => rfl)
theorem r29 (i : S100000x128.Idx) (k : Fin 128) : ridx_main_v29 i k = ix2 k (i 1 : Fin 128) :=
  funext fun a => Fin.ext (by match a with | ⟨0, _⟩ => rfl | ⟨1, _⟩ => rfl)
theorem l52 (i : S100000x128.Idx) (k : Fin 128) : lidx_main_v52 i k = ix2 (i 0 : Fin 100000) k :=
  funext fun a => Fin.ext (by match a with | ⟨0, _⟩ => rfl | ⟨1, _⟩ => rfl)
theorem r52 (i : S100000x128.Idx) (k : Fin 128) : ridx_main_v52 i k = ix2 k (i 1 : Fin 128) :=
  funext fun a => Fin.ext (by match a with | ⟨0, _⟩ => rfl | ⟨1, _⟩ => rfl)
theorem l57 (i : S100000x128.Idx) (k : Fin 128) : lidx_main_v57 i k = ix2 (i 0 : Fin 100000) k :=
  funext fun a => Fin.ext (by match a with | ⟨0, _⟩ => rfl | ⟨1, _⟩ => rfl)
theorem r57 (i : S100000x128.Idx) (k : Fin 128) : ridx_main_v57 i k = ix2 k (i 1 : Fin 128) :=
  funext fun a => Fin.ext (by match a with | ⟨0, _⟩ => rfl | ⟨1, _⟩ => rfl)
theorem i26 (i : S100000x128.Idx) : idx_main_v26 i = ix2 (0 : Fin 1) (i 1 : Fin 128) :=
  funext fun a => Fin.ext (by match a with | ⟨0, _⟩ => rfl | ⟨1, _⟩ => rfl)
theorem i54 (i : S100000x128.Idx) : idx_main_v54 i = ix2 (0 : Fin 1) (i 1 : Fin 128) :=
  funext fun a => Fin.ext (by match a with | ⟨0, _⟩ => rfl | ⟨1, _⟩ => rfl)

/-- The reference's first layer (two products, the bias broadcast, the maximum with zero) is `linRelu` of its operands. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = linRelu (val_main_v22 (F := Ideal) x0 x1) x0 (val_main_v23 (F := Ideal) x2) (val_main_v25 (F := Ideal) x3) (val_main_v28 (F := Ideal) x4) := by
  funext i
  rw [val_main_v31_apply, val_main_v30_apply, val_main_v27_apply, val_main_v24_apply, val_main_v26_apply, val_main_v29_apply,
    val_main_call0_v0_apply, val_main_call0_cst_apply]
  simp only [l24, r24, l29, r29, i26]
  rfl

/-- The reference's second layer is `lin` of its operands. -/
theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v58 (F := Ideal) x0 x1 x2 x3 x4 x5 x6 x7
      = lin (val_main_v50 (F := Ideal) x0 x1 x2 x3 x4) (val_main_v31 (F := Ideal) x0 x1 x2 x3 x4) (val_main_v51 (F := Ideal) x5)
          (val_main_v53 (F := Ideal) x6) (val_main_v56 (F := Ideal) x7) := by
  funext i
  rw [val_main_v58_apply, val_main_v55_apply, val_main_v52_apply, val_main_v54_apply, val_main_v57_apply]
  simp only [l52, r52, l57, r57, i54]
  rfl

/-- THE REFERENCE'S RESULT is the network's function of the eight arguments. -/
theorem result (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v58 (F := Ideal) x0 x1 x2 x3 x4 x5 x6 x7 = Model.sage x0 x1 x2 x3 x4 x5 x6 x7 := by
  rw [layer2, mean2, layer1, mean1]
  unfold val_main_v23 val_main_v25 val_main_v28 val_main_v51 val_main_v53 val_main_v56
  rw [wT_eq x2, wT_eq x4, wT_eq x5, wT_eq x7, biasRow_eq x3, biasRow_eq x6]
  rfl

end Cert.Sage.RefLayers

end
-- ==== Proof.lean ====
/-
  The proof of `Cert.Claim`: a two-layer GraphSAGE forward pass whose two dense layers run as tiled launches
  (4000 of the 100000 rows per grid point, bf16-rounded operands into f32 accumulators), against the plain
  whole-array reference.

  Over the extended reals the rounding to bf16 is the identity and a tiled product is the same sum as the whole
  product, so both programs compute, with the same grouping of additions,

      h   = max(mean(x) · W1lᵀ + b1 + x · W1rᵀ, 0),      out = mean(h) · W2lᵀ + b2 + h · W2rᵀ

  (`Cert.Sage.Model.sage`), where `mean` is the neighbourhood mean over the edge list, the same host operations in
  both programs and never opened. No finiteness of the inputs is used: no law beyond reading sums index by index joins
  the two sides.

  * The kernel program (`Proof/KernelResult.lean`): its four segments are launched once with every surviving buffer
    read at the end (`Proof/KernelRun.lean`); each launch's output array is the layer's function of the arrays it was
    entered with (`Proof/Region0.lean`, `Proof/Region1.lean`, over the stored value read at an entry,
    `Proof/Payload.lean`); the host stretches are read in `Proof/HostBefore.lean`, `Proof/HostBetween.lean`; and
    `Proof/KernelValue.lean` walks the result back through the four boundaries.
  * The reference (`Proof/RefLayers.lean`): its generated run, read one operation at a time, is the same function.
  * The three frames are the generated ones (the reference's is its run with the result dropped); the idealization
    rewrote nothing, so `preserves` is trivial.
-/
import proofs.«150568_j7224134992217_1_alg».proof.Defs
import proofs.«150568_j7224134992217_1_alg».proof.Proof.Gen.Kernel
import proofs.«150568_j7224134992217_1_alg».proof.Proof.Gen.Kernel.Skeleton
import proofs.«150568_j7224134992217_1_alg».proof.Proof.Gen.Kernel.Launch
import proofs.«150568_j7224134992217_1_alg».proof.Proof.Gen.Kernel.Points
import proofs.«150568_j7224134992217_1_alg».proof.Proof.Gen.Kernel.Frame
import proofs.«150568_j7224134992217_1_alg».proof.Proof.Gen.KernelIdeal
import proofs.«150568_j7224134992217_1_alg».proof.Proof.Gen.KernelIdeal.Skeleton
import proofs.«150568_j7224134992217_1_alg».proof.Proof.Gen.KernelIdeal.Launch
import proofs.«150568_j7224134992217_1_alg».proof.Proof.Gen.KernelIdeal.Points
import proofs.«150568_j7224134992217_1_alg».proof.Proof.Gen.KernelIdeal.Frame
import proofs.«150568_j7224134992217_1_alg».proof.Proof.Gen.ReferenceIdeal
import proofs.«150568_j7224134992217_1_alg».proof.Proof.Gen.ReferenceIdeal.Run
import proofs.«150568_j7224134992217_1_alg».proof.Proof.Gen.ReferenceIdeal.Read
import proofs.«150568_j7224134992217_1_alg».proof.Proof.Gen.Pre_finite_inputs
import proofs.«150568_j7224134992217_1_alg».proof.Proof.KernelResult
import proofs.«150568_j7224134992217_1_alg».proof.Proof.RefLayers
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the network's function of those arguments. -/
theorem algebraic : Cert.algebraic_KernelIdeal_ReferenceIdeal := by
  intro m ρ m' ρ' _ hagree
  refine ⟨_, Cert.Sage.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.Sage.RefLayers.result,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
